-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x16 : Shape := ⟨2, ![1600000, 16]⟩
abbrev S80x64 : Shape := ⟨2, ![80, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x16 .f32) (main_arg2 : FVec F S80x64 .f32) (main_arg3 : FVec F S64 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S80x64 .f32 := Host.absf main_arg2
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x16 : Shape := ⟨2, ![1600000, 16]⟩
abbrev S80x64 : Shape := ⟨2, ![80, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S64x64 : Shape := ⟨2, ![64, 64]⟩
abbrev S16x64 : Shape := ⟨2, ![16, 64]⟩
abbrev S2000x64 : Shape := ⟨2, ![2000, 64]⟩
abbrev S2000x16 : Shape := ⟨2, ![2000, 16]⟩
abbrev S1x64 : Shape := ⟨2, ![1, 64]⟩

abbrev nBuf : Space → Nat
  | .hbm => 26
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1600000x16, .f32⟩
  | .hbm, ⟨2, _⟩ => ⟨S80x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x16, .f32⟩
  | .hbm, ⟨21, _⟩ => ⟨S1600000x1, .i32⟩
  | .hbm, ⟨22, _⟩ => ⟨S100000x16, .f32⟩
  | .hbm, ⟨23, _⟩ => ⟨S64x64, .f32⟩
  | .hbm, ⟨24, _⟩ => ⟨S16x64, .f32⟩
  | .hbm, ⟨25, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x16, .f32⟩
  | .local _ .vmem, ⟨5, _⟩ => ⟨S2000x16, .f32⟩
  | .local _ .vmem, ⟨6, _⟩ => ⟨S64x64, .f32⟩
  | .local _ .vmem, ⟨7, _⟩ => ⟨S16x64, .f32⟩
  | .local _ .vmem, ⟨8, _⟩ => ⟨S64, .f32⟩
  | .local _ .vmem, ⟨9, _⟩ => ⟨S2000x64, .f32⟩
  | .local _ .vmem, ⟨10, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000x16 : S_.BroadcastsInDim S100000x16 (![] : Fin 0 → Fin S100000x16.rank)
  slices_S80x64_S64x64_0_0 : S80x64.Slices ![0, 0] S64x64
  slices_S80x64_S16x64_64_0 : S80x64.Slices ![64, 0] S16x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x16_S1600000x1_S1600000x16_1_0_0_1_wf : ScatterDims.WF S100000x16 S1600000x1 S1600000x16 [1] [0] [0] 1
  dot_S2000x64_S64x64_S2000x64_1_0_0_1_n_n_wf : DotDims.WF S2000x64 S64x64 S2000x64 [1] [0] [0] [1] [] []
  dot_S2000x16_S16x64_S2000x64_1_0_0_1_n_n_wf : DotDims.WF S2000x16 S16x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x16 : Shape := ⟨2, ![1600000, 16]⟩
abbrev S80x64 : Shape := ⟨2, ![80, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S100000x80 : Shape := ⟨2, ![100000, 80]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x16, .f32⟩
  | .hbm, ⟨2, _⟩ => ⟨S80x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x16, .f32⟩
  | .hbm, ⟨21, _⟩ => ⟨S1600000x1, .i32⟩
  | .hbm, ⟨22, _⟩ => ⟨S100000x16, .f32⟩
  | .hbm, ⟨23, _⟩ => ⟨S100000x80, .f32⟩
  | .hbm, ⟨24, _⟩ => ⟨S_, .f32⟩
  | .hbm, ⟨25, _⟩ => ⟨S100000x16, .f32⟩
  | .hbm, ⟨26, _⟩ => ⟨S100000x80, .f32⟩
  | .hbm, ⟨27, _⟩ => ⟨S_, .f32⟩
  | .hbm, ⟨28, _⟩ => ⟨S100000x80, .f32⟩
  | .hbm, ⟨29, _⟩ => ⟨S100000x80, .f32⟩
  | .hbm, ⟨30, _⟩ => ⟨S100000x80, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000x16 : S_.BroadcastsInDim S100000x16 (![] : Fin 0 → Fin S100000x16.rank)
  concatenates_S100000x64_S100000x16_S100000x80_d1 : Shape.Concatenates [S100000x64, S100000x16] S100000x80 1
  bcast_S_S100000x80 : S_.BroadcastsInDim S100000x80 (![] : Fin 0 → Fin S100000x80.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x16_S1600000x1_S1600000x16_1_0_0_1_wf : ScatterDims.WF S100000x16 S1600000x1 S1600000x16 [1] [0] [0] 1
  dot_S100000x80_S80x64_S100000x64_1_0_0_1_n_n_wf : DotDims.WF S100000x80 S80x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x80_S80x64_S100000x64_1_0_0_1_n_n : DotDims S100000x80 S80x64 S100000x64 where
  lhsContracting := [1]
  rhsContracting := [0]
  lhsNonContracting := [0]
  rhsNonContracting := [1]
  lhsBatch := []
  rhsBatch := []
  wf := dot_S100000x80_S80x64_S100000x64_1_0_0_1_n_n_wf

class Facts : Prop extends Facts₀ where

variable [Facts]
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.BlockEntry.lean ====
/-
  What the kernel's body computes for one block of 2000 rows, entry by entry.

  The body adds the block of node features to the block of summed neighbour features, multiplies that 2000 × 64 block
  by the first 64 rows of the weights, multiplies the 2000 × 16 block of summed edge weights by the last 16 rows, adds
  the two products and the bias row, and clamps below at zero. At the ideal values the changes of float format are the
  identity and each matrix product from a zero accumulator is the plain sum over the contracted axis, so entry (p, q)
  of the result depends on the blocks only through their row p.
-/
import proofs.«172708_j25649544692297_1_alg».proof.Proof.Gen.KernelIdeal.Skeleton
import proofs.«172708_j25649544692297_1_alg».proof.Proof.LibPlainDot
import Idealize.ShloMosaic.Lib.Pipeline.Value

noncomputable section

namespace Cert.KernelIdeal.BlockEntry

open Cert.KernelIdeal Cert.KernelIdeal.Gen Idealize.ShloMosaic Idealize.ShloMosaic.ValueIdx

/-- The first product is a plain 2000 × 64 by 64 × 64 one. -/
theorem dot_feat_plain : dot_S2000x64_S64x64_S2000x64_1_0_0_1_n_n = DotDims.plain 2000 64 64 := rfl

/-- The second product is a plain 2000 × 16 by 16 × 64 one. -/
theorem dot_edge_plain : dot_S2000x16_S16x64_S2000x64_1_0_0_1_n_n = DotDims.plain 2000 16 64 := rfl

/-- Entry (p, q) of the block the body stores: the row p of (features + neighbour features) against column q of the
    upper weights, plus the row p of edge-weight sums against column q of the lower weights, plus the bias at q,
    clamped below at zero. -/
theorem payload_at (v0 v1 : Vec Ideal S2000x64 .f32) (v3 : Vec Ideal S2000x16 .f32) (v6 : Vec Ideal S64x64 .f32)
    (v9 : Vec Ideal S16x64 .f32) (v17 : Vec Ideal S64 .f32) (p : Fin 2000) (q : Fin 64) :
    k0_pay1 v0 v1 v3 v6 v9 v17 (ix2 p q)
      = max (((∑ k : Fin 64, (v0 (ix2 p k) + v1 (ix2 p k)) * v6 (ix2 k q))
              + ∑ k : Fin 16, v3 (ix2 p k) * v9 (ix2 k q)) + v17 (ix1 q)) (Ideal.ofBits .f32 0x00000000#32) := by
  unfold k0_pay1
  simp only [shapeCast_self, dot_feat_plain, dot_edge_plain]
  rw [maximumf_apply, addf_apply, addf_apply, Cert.LibPlainDot.biasRows_apply]
  simp only [matmul]
  rw [Cert.LibPlainDot.plain_matmul, Cert.LibPlainDot.plain_matmul]
  rfl

end Cert.KernelIdeal.BlockEntry

end
-- ==== Proof.HostSide.lean ====
/-
  What the kernel's region finds in the arrays the host computed before it.

  Four of the region's operand arrays are not arguments: the summed neighbour features (a gather of the feature rows
  at the edges' sources, scatter-added at the edges' targets into zeros), the summed edge weights (the edge-weight
  rows scatter-added at the targets into zeros), and the weight matrix cut into its first 64 rows and its last 16.
  Each is named here as a function of the argument arrays; the two sums are never opened — the reference computes the
  very same terms — and the two cuts are read at an entry.
-/
import proofs.«172708_j25649544692297_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- The edges' source nodes, a negative one counted from the end (as the host's indexing normalises it). -/
def sources (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The summed neighbour features: the feature rows at the sources, added up at the targets. -/
def neighFeat (feat : (⟨S100000x64, .f32⟩ : BufTy).Contents (Elt Ideal)) (src dst : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 feat (sources src))

/-- The summed edge weights: the edge-weight rows added up at the targets. -/
def neighEdge (ew : (⟨S1600000x16, .f32⟩ : BufTy).Contents (Elt Ideal)) (dst : (⟨S1600000, .i32⟩ : BufTy).Contents (Elt Ideal)) :
    (⟨S100000x16, .f32⟩ : BufTy).Contents (Elt Ideal) :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst) ew

variable (m : (ℓ : Loc nD τ sig) → Buf (Elt Ideal) ℓ)

/-- The region finds the summed neighbour features of the arguments in its second operand array. -/
theorem found_neighFeat (c : Dev nD) :
    (V m c main_v9 : S100000x64.Idx → EReal)
      = neighFeat (m ((c : Thread nD τ).loc main_arg0)) (m ((c : Thread nD τ).loc main_arg4)) (m ((c : Thread nD τ).loc main_arg5)) := by
  dsimp only [Gen.V, Gen.hostOps0]
  after_results
  rfl

/-- The region finds the summed edge weights of the arguments in its third operand array. -/
theorem found_neighEdge (c : Dev nD) :
    (V m c main_v12 : S100000x16.Idx → EReal)
      = neighEdge (m ((c : Thread nD τ).loc main_arg1)) (m ((c : Thread nD τ).loc main_arg5)) := by
  dsimp only [Gen.V, Gen.hostOps0]
  after_results
  rfl

/-- The region finds the first 64 rows of the weights in its fourth operand array. -/
theorem found_upper (c : Dev nD) :
    (V m c main_v13 : S64x64.Idx → EReal)
      = extractStridedSlice S64x64 ![0, 0] (m ((c : Thread nD τ).loc main_arg2)) slices_S80x64_S64x64_0_0 := by
  dsimp only [Gen.V, Gen.hostOps0]
  after_results

/-- The region finds the last 16 rows of the weights in its fifth operand array. -/
theorem found_lower (c : Dev nD) :
    (V m c main_v14 : S16x64.Idx → EReal)
      = extractStridedSlice S16x64 ![64, 0] (m ((c : Thread nD τ).loc main_arg2)) slices_S80x64_S16x64_64_0 := by
  dsimp only [Gen.V, Gen.hostOps0]
  after_results

/-- Row k, column q of the first 64 rows is row k, column q of the weights. -/
theorem upper_at (W : S80x64.Idx → EReal) (k : Fin 64) (q : Fin 64) :
    extractStridedSlice S64x64 ![0, 0] W slices_S80x64_S64x64_0_0 (ix2 k q) = W (ix2 (⟨k.val, by omega⟩ : Fin 80) q) :=
  extractStridedSlice_apply _ W _ (ix2 k q) (ix2 (⟨k.val, by omega⟩ : Fin 80) q) fun a => by
    match a with
    | ⟨0, _⟩ => show k.val = 0 + k.val; omega
    | ⟨1, _⟩ => show q.val = 0 + q.val; omega

/-- Row k, column q of the last 16 rows is row 64 + k, column q of the weights. -/
theorem lower_at (W : S80x64.Idx → EReal) (k : Fin 16) (q : Fin 64) :
    extractStridedSlice S16x64 ![64, 0] W slices_S80x64_S16x64_64_0 (ix2 k q) = W (ix2 (⟨64 + k.val, by omega⟩ : Fin 80) q) :=
  extractStridedSlice_apply _ W _ (ix2 k q) (ix2 (⟨64 + k.val, by omega⟩ : Fin 80) q) fun a => by
    match a with
    | ⟨0, _⟩ => show 64 + k.val = 64 + k.val; rfl
    | ⟨1, _⟩ => show q.val = 0 + q.val; omega

end Cert.KernelIdeal.HostSide

end
-- ==== Proof.LayerSpec.lean ====
/-
  One layer of a graph network, entry by entry, over the extended reals.

  Every node r carries a feature row feat(r, ·) of width 64. Summing the features of the nodes that send r an edge
  gives nh(r, ·), of width 64; summing the weights of those edges gives nw(r, ·), of width 16. The layer joins the
  two into a row of width 80 — its first 64 columns feat + nh, its last 16 columns nw alone, because the feature row
  is padded there with zeros — multiplies that row by the 80 × 64 weight matrix W, adds the bias b and clamps below
  at zero.

  A sum over the 80 columns of the joined row is the sum over its first 64 columns plus the sum over its last 16:
  that holds in any commutative monoid, so on the extended reals no entry needs to be finite. It is the one law
  between computing the product in two parts (rows of W 0..63 against feat + nh, rows 64..79 against nw) and computing
  it in one piece on the joined row.
-/
import Idealize.ShloMosaic.PureOps.Ideal.Laws
import Idealize.ShloMosaic.Lib.ValueIdx

noncomputable section

namespace Cert.GraphLayer

open Idealize.ShloMosaic Idealize.ShloMosaic.ValueIdx

/-- Column k of the first 64 columns of the joined row. -/
abbrev lo (k : Fin 64) : Fin 80 := ⟨k.val, by omega⟩

/-- Column k of the last 16 columns of the joined row. -/
abbrev hi (k : Fin 16) : Fin 80 := ⟨64 + k.val, by omega⟩

/-- A sum over the 80 columns is the sum over the first 64 plus the sum over the last 16. -/
theorem sum_lo_hi (f : Fin 80 → EReal) : ∑ k : Fin 80, f k = (∑ k : Fin 64, f (lo k)) + ∑ k : Fin 16, f (hi k) :=
  Fin.sum_univ_add (a := 64) (b := 16) f

/-- Entry (r, j) of the layer's output, the product taken in two parts. The zero clamped against is kept as the float
    word both programs spell it with. -/
def entry (feat nh : (⟨2, ![100000, 64]⟩ : Shape).Idx → EReal) (nw : (⟨2, ![100000, 16]⟩ : Shape).Idx → EReal)
    (W : (⟨2, ![80, 64]⟩ : Shape).Idx → EReal) (b : (⟨1, ![64]⟩ : Shape).Idx → EReal) (r : Fin 100000) (j : Fin 64) : EReal :=
  max (((∑ k : Fin 64, (feat (ix2 r k) + nh (ix2 r k)) * W (ix2 (lo k) j))
        + ∑ k : Fin 16, nw (ix2 r k) * W (ix2 (hi k) j)) + b (ix1 j)) (Ideal.ofBits .f32 0x00000000#32)

/-- The layer's whole output array. -/
def layer (feat nh : (⟨2, ![100000, 64]⟩ : Shape).Idx → EReal) (nw : (⟨2, ![100000, 16]⟩ : Shape).Idx → EReal)
    (W : (⟨2, ![80, 64]⟩ : Shape).Idx → EReal) (b : (⟨1, ![64]⟩ : Shape).Idx → EReal) :
    (⟨2, ![100000, 64]⟩ : Shape).Idx → EReal :=
  fun i => entry feat nh nw W b (i 0) (i 1)

theorem layer_ix2 (feat nh : (⟨2, ![100000, 64]⟩ : Shape).Idx → EReal) (nw : (⟨2, ![100000, 16]⟩ : Shape).Idx → EReal)
    (W : (⟨2, ![80, 64]⟩ : Shape).Idx → EReal) (b : (⟨1, ![64]⟩ : Shape).Idx → EReal) (r : Fin 100000) (j : Fin 64) :
    layer feat nh nw W b (ix2 r j) = entry feat nh nw W b r j := rfl

/-- The product taken in one piece: if a row of width 80 holds feat + nh in its first 64 columns and nw in its last 16,
    its product with column j of W, plus the bias, clamped, is the layer's entry. -/
theorem entry_of_joined_row (feat nh : (⟨2, ![100000, 64]⟩ : Shape).Idx → EReal) (nw : (⟨2, ![100000, 16]⟩ : Shape).Idx → EReal)
    (W : (⟨2, ![80, 64]⟩ : Shape).Idx → EReal) (b : (⟨1, ![64]⟩ : Shape).Idx → EReal) (r : Fin 100000) (j : Fin 64)
    (row : Fin 80 → EReal) (hlo : ∀ k : Fin 64, row (lo k) = feat (ix2 r k) + nh (ix2 r k))
    (hhi : ∀ k : Fin 16, row (hi k) = nw (ix2 r k)) :
    max ((∑ k : Fin 80, row k * W (ix2 k j)) + b (ix1 j)) (Ideal.ofBits .f32 0x00000000#32) = entry feat nh nw W b r j := by
  unfold entry
  rw [sum_lo_hi]
  simp only [hlo, hhi]

end Cert.GraphLayer

end
-- ==== Proof.BlockReads.lean ====
/-
  What each grid point is handed.

  Grid point t works on rows 2000 t … 2000 t + 1999. Row p of its blocks of node features, of summed neighbour
  features and of summed edge weights is row 2000 t + p of those arrays; the two cuts of the weight matrix and the bias
  come whole, the same at every point. Each window's block is first read at an entry out of an ARBITRARY array — that
  is only arithmetic on the window's index map — and then the arrays the region finds are put in: the arguments
  themselves, or the host's sums and cuts of them, which are named and never opened.
-/
import proofs.«172708_j25649544692297_1_alg».proof.Proof.Gen.KernelIdeal.Value
import proofs.«172708_j25649544692297_1_alg».proof.Proof.HostSide
import proofs.«172708_j25649544692297_1_alg».proof.Proof.LayerSpec
import Idealize.ShloMosaic.Lib.Pipeline.Value

noncomputable section

namespace Cert.KernelIdeal.BlockReads

open Cert.KernelIdeal Cert.KernelIdeal.Gen Idealize.ShloMosaic Idealize.ShloMosaic.TcCoe Idealize.SL.Sem
open Idealize.ShloMosaic.ValueIdx
open Idealize.ShloMosaic.Pipeline (Dat)
open Cert.GraphLayer (lo hi)

/-- The printed index maps, decided over the 50 grid points: the three row-blocked inputs and the output take block t,
    the weights and the bias their one block. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of block t is row 2000 t + p of the arrays. -/
def rowOf (t : Fin cfg0.N) (p : Fin 2000) : Fin 100000 :=
  ⟨t.val * 2000 + p.val, by have h : t.val < 50 := N_0 ▸ t.isLt; omega⟩

/-! ## A block read out of an arbitrary array -/

/-- Window 0's block at point t, entry (p, k), is the array's entry (2000 t + p, k). -/
theorem rows0 (A : S100000x64.Idx → EReal) (t : Fin cfg0.N) (p : Fin 2000) (k : Fin 64) :
    ((cfg0.win 0).blk t).view.read (Elt Ideal) A (ix2 p k) = A (ix2 (rowOf t p) k) := by
  obtain ⟨e0, e1, -⟩ := block_of_point t
  show A (((cfg0.win 0).blk t).view.emb (ix2 p k)) = _
  refine congrArg A (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * k.val = k.val; omega

/-- Window 1's block at point t, entry (p, k), is the array's entry (2000 t + p, k). -/
theorem rows1 (A : S100000x64.Idx → EReal) (t : Fin cfg0.N) (p : Fin 2000) (k : Fin 64) :
    ((cfg0.win 1).blk t).view.read (Elt Ideal) A (ix2 p k) = A (ix2 (rowOf t p) k) := by
  obtain ⟨-, -, e0, e1, -⟩ := block_of_point t
  show A (((cfg0.win 1).blk t).view.emb (ix2 p k)) = _
  refine congrArg A (funext fun a => Fin.ext ?_)
  match a with
  | ⟨0, _⟩ => show win0_1.index t (0 : Fin 2) * 2000 + 1 * p.val = t.val * 2000 + p.val; omega
  | ⟨1, _⟩ => show win0_1.index t (1 : Fin 2) * 64 + 1 * k.val = k.val; omega

/-- Window 2's block at point t, entry (p, k), is the array's entry (2000 t + p, k). -/
theorem rows2 (A : S100000x16.Idx → EReal) (t : Fin cfg0.N) (p : Fin 2000) (k : Fin 16) :
    ((cfg0.win 2).blk t).view.read (Elt Ideal) A (ix2 p k) = A (ix2 (rowOf t p) k) := by
  obtain ⟨-, -, -, -, e0, e1, -⟩ := block_of_point t
  show A (((cfg0.win 2).blk t).view.emb (ix2 p k)) = _
  refine congrArg A (funext fun a => Fin.ext ?_)
  match a with
  | ⟨0, _⟩ => show win0_2.index t (0 : Fin 2) * 2000 + 1 * p.val = t.val * 2000 + p.val; omega
  | ⟨1, _⟩ => show win0_2.index t (1 : Fin 2) * 16 + 1 * k.val = k.val; omega

/-- Window 3's one block is its whole array. -/
theorem whole3 (A : S64x64.Idx → EReal) (t : Fin cfg0.N) (k : Fin 64) (q : Fin 64) :
    ((cfg0.win 3).blk t).view.read (Elt Ideal) A (ix2 k q) = A (ix2 k q) := by
  obtain ⟨-, -, -, -, -, -, e0, e1, -⟩ := block_of_point t
  show A (((cfg0.win 3).blk t).view.emb (ix2 k q)) = _
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- Window 4's one block is its whole array. -/
theorem whole4 (A : S16x64.Idx → EReal) (t : Fin cfg0.N) (k : Fin 16) (q : Fin 64) :
    ((cfg0.win 4).blk t).view.read (Elt Ideal) A (ix2 k q) = A (ix2 k q) := by
  obtain ⟨-, -, -, -, -, -, -, -, e0, e1, -⟩ := block_of_point t
  show A (((cfg0.win 4).blk t).view.emb (ix2 k q)) = _
  refine congrArg A (funext fun a => Fin.ext ?_)
  match a with
  | ⟨0, _⟩ => show win0_4.index t (0 : Fin 2) * 16 + 1 * k.val = k.val; omega
  | ⟨1, _⟩ => show win0_4.index t (1 : Fin 2) * 64 + 1 * q.val = q.val; omega

/-- Window 5's one block is its whole array. -/
theorem whole5 (A : S64.Idx → EReal) (t : Fin cfg0.N) (q : Fin 64) :
    ((cfg0.win 5).blk t).view.read (Elt Ideal) A (ix1 q) = A (ix1 q) := by
  obtain ⟨-, -, -, -, -, -, -, -, -, -, e0, -⟩ := block_of_point t
  show A (((cfg0.win 5).blk t).view.emb (ix1 q)) = _
  refine congrArg A (funext fun a => Fin.ext ?_)
  match a with
  | ⟨0, _⟩ => show win0_5.index t (0 : Fin 1) * 64 + 1 * q.val = q.val; omega

/-- The output window's block at point t, entry (p, q), is the array's entry (2000 t + p, q). -/
theorem rows6 (A : S100000x64.Idx → EReal) (t : Fin cfg0.N) (p : Fin 2000) (q : Fin 64) :
    ((cfg0.win 6).blk t).view.read (Elt Ideal) A (ix2 p q) = A (ix2 (rowOf t p) q) := by
  obtain ⟨-, -, -, -, -, -, -, -, -, -, -, e0, e1⟩ := block_of_point t
  show A (((cfg0.win 6).blk t).view.emb (ix2 p q)) = _
  refine congrArg A (funext fun a => Fin.ext ?_)
  match a with
  | ⟨0, _⟩ => show win0_6.index t (0 : Fin 2) * 2000 + 1 * p.val = t.val * 2000 + p.val; omega
  | ⟨1, _⟩ => show win0_6.index t (1 : Fin 2) * 64 + 1 * q.val = q.val; omega

/-! ## The blocks the points are handed, as blocks of the arguments and of the host's sums and cuts -/

variable (m : (ℓ : Loc nD τ sig) → Buf (Elt Ideal) ℓ)

/-- The feature block is a block of the feature argument. -/
theorem block0 (c : Dev nD) (t : Fin cfg0.N) :
    iblk m c 0 t = ((cfg0.win 0).blk t).view.read (Elt Ideal) (m ((c : Thread nD τ).loc main_arg0)) := by
  unfold iblk
  exact congrArg _ (V_main_arg0 m c)

/-- The second block is a block of the summed neighbour features. -/
theorem block1 (c : Dev nD) (t : Fin cfg0.N) :
    iblk m c 1 t = ((cfg0.win 1).blk t).view.read (Elt Ideal) (HostSide.neighFeat (m ((c : Thread nD τ).loc main_arg0)) (m ((c : Thread nD τ).loc main_arg4)) (m ((c : Thread nD τ).loc main_arg5))) := by
  unfold iblk
  exact congrArg _ (HostSide.found_neighFeat m c)

/-- The third block is a block of the summed edge weights. -/
theorem block2 (c : Dev nD) (t : Fin cfg0.N) :
    iblk m c 2 t = ((cfg0.win 2).blk t).view.read (Elt Ideal) (HostSide.neighEdge (m ((c : Thread nD τ).loc main_arg1)) (m ((c : Thread nD τ).loc main_arg5))) := by
  unfold iblk
  exact congrArg _ (HostSide.found_neighEdge m c)

/-- The fourth block is the first 64 rows of the weights. -/
theorem block3 (c : Dev nD) (t : Fin cfg0.N) :
    iblk m c 3 t = ((cfg0.win 3).blk t).view.read (Elt Ideal)
      (extractStridedSlice S64x64 ![0, 0] (m ((c : Thread nD τ).loc main_arg2)) slices_S80x64_S64x64_0_0) := by
  unfold iblk
  exact congrArg _ (HostSide.found_upper m c)

/-- The fifth block is the last 16 rows of the weights. -/
theorem block4 (c : Dev nD) (t : Fin cfg0.N) :
    iblk m c 4 t = ((cfg0.win 4).blk t).view.read (Elt Ideal)
      (extractStridedSlice S16x64 ![64, 0] (m ((c : Thread nD τ).loc main_arg2)) slices_S80x64_S16x64_64_0) := by
  unfold iblk
  exact congrArg _ (HostSide.found_lower m c)

/-- The sixth block is the bias argument. -/
theorem block5 (c : Dev nD) (t : Fin cfg0.N) :
    iblk m c 5 t = ((cfg0.win 5).blk t).view.read (Elt Ideal) (m ((c : Thread nD τ).loc main_arg3)) := by
  unfold iblk
  exact congrArg _ (V_main_arg3 m c)

/-! ## Each block at an entry -/

/-- The feature block at point t, entry (p, k), is the argument's entry (2000 t + p, k). -/
theorem feat_at (c : Dev nD) (t : Fin cfg0.N) (p : Fin 2000) (k : Fin 64) :
    iblk m c 0 t (ix2 p k) = (m ((c : Thread nD τ).loc main_arg0)) (ix2 (rowOf t p) k) :=
  (congrFun (block0 m c t) (ix2 p k)).trans (rows0 (m ((c : Thread nD τ).loc main_arg0)) t p k)

/-- The block of summed neighbour features at point t, entry (p, k). -/
theorem neighFeat_at (c : Dev nD) (t : Fin cfg0.N) (p : Fin 2000) (k : Fin 64) :
    iblk m c 1 t (ix2 p k) = (HostSide.neighFeat (m ((c : Thread nD τ).loc main_arg0)) (m ((c : Thread nD τ).loc main_arg4)) (m ((c : Thread nD τ).loc main_arg5))) (ix2 (rowOf t p) k) :=
  (congrFun (block1 m c t) (ix2 p k)).trans (rows1 (HostSide.neighFeat (m ((c : Thread nD τ).loc main_arg0)) (m ((c : Thread nD τ).loc main_arg4)) (m ((c : Thread nD τ).loc main_arg5))) t p k)

/-- The block of summed edge weights at point t, entry (p, k). -/
theorem neighEdge_at (c : Dev nD) (t : Fin cfg0.N) (p : Fin 2000) (k : Fin 16) :
    iblk m c 2 t (ix2 p k) = (HostSide.neighEdge (m ((c : Thread nD τ).loc main_arg1)) (m ((c : Thread nD τ).loc main_arg5))) (ix2 (rowOf t p) k) :=
  (congrFun (block2 m c t) (ix2 p k)).trans (rows2 (HostSide.neighEdge (m ((c : Thread nD τ).loc main_arg1)) (m ((c : Thread nD τ).loc main_arg5))) t p k)

/-- The upper weights' block, entry (k, q), is the weights' entry (k, q). -/
theorem upper_at (c : Dev nD) (t : Fin cfg0.N) (k : Fin 64) (q : Fin 64) :
    iblk m c 3 t (ix2 k q) = (m ((c : Thread nD τ).loc main_arg2)) (ix2 (lo k) q) :=
  ((congrFun (block3 m c t) (ix2 k q)).trans (whole3 _ t k q)).trans (HostSide.upper_at (m ((c : Thread nD τ).loc main_arg2)) k q)

/-- The lower weights' block, entry (k, q), is the weights' entry (64 + k, q). -/
theorem lower_at (c : Dev nD) (t : Fin cfg0.N) (k : Fin 16) (q : Fin 64) :
    iblk m c 4 t (ix2 k q) = (m ((c : Thread nD τ).loc main_arg2)) (ix2 (hi k) q) :=
  ((congrFun (block4 m c t) (ix2 k q)).trans (whole4 _ t k q)).trans (HostSide.lower_at (m ((c : Thread nD τ).loc main_arg2)) k q)

/-- The bias's block, entry q, is the bias's entry q. -/
theorem bias_at (c : Dev nD) (t : Fin cfg0.N) (q : Fin 64) :
    iblk m c 5 t (ix1 q) = (m ((c : Thread nD τ).loc main_arg3)) (ix1 q) :=
  (congrFun (block5 m c t) (ix1 q)).trans (whole5 (m ((c : Thread nD τ).loc main_arg3)) t q)

end Cert.KernelIdeal.BlockReads

end
-- ==== Proof.ByBlocks.lean ====
/-
  The kernel computes the layer block by block.

  Grid point t is handed rows 2000 t … 2000 t + 1999 of the node features, of the summed neighbour features and of
  the summed edge weights, the two cuts of the weight matrix and the bias whole, and writes back those rows of the
  result. Entry (p, q) of what it writes depends on its blocks only through their row p, which is row 2000 t + p of
  the arrays, so what point t writes back is rows 2000 t … of the layer of the whole arrays. The 50 blocks tile the
  100000 rows, so after the run the result array is the layer.
-/
import proofs.«172708_j25649544692297_1_alg».proof.Proof.Gen.KernelIdeal.Value
import proofs.«172708_j25649544692297_1_alg».proof.Proof.BlockEntry
import proofs.«172708_j25649544692297_1_alg».proof.Proof.BlockReads
import proofs.«172708_j25649544692297_1_alg».proof.Proof.LayerSpec
import Idealize.ShloMosaic.Lib.Pipeline.Value

noncomputable section

namespace Cert.KernelIdeal.ByBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.GraphLayer (lo hi)
open Cert.KernelIdeal.BlockReads

variable (m : (ℓ : Loc nD τ sig) → Buf (Elt Ideal) ℓ) (ρ : Dev nD → PrngReg)

/-- The layer of the argument arrays: what the result array is to hold. -/
def result (c : Dev nD) : S100000x64.Idx → EReal :=
  Cert.GraphLayer.layer (m ((c : Thread nD τ).loc main_arg0)) (HostSide.neighFeat (m ((c : Thread nD τ).loc main_arg0)) (m ((c : Thread nD τ).loc main_arg4)) (m ((c : Thread nD τ).loc main_arg5))) (HostSide.neighEdge (m ((c : Thread nD τ).loc main_arg1)) (m ((c : Thread nD τ).loc main_arg5))) (m ((c : Thread nD τ).loc main_arg2)) (m ((c : Thread nD τ).loc main_arg3))

/-- Its entry (r, j). -/
theorem result_at (c : Dev nD) (r : Fin 100000) (j : Fin 64) :
    result m c (ix2 r j) = Cert.GraphLayer.entry (m ((c : Thread nD τ).loc main_arg0)) (HostSide.neighFeat (m ((c : Thread nD τ).loc main_arg0)) (m ((c : Thread nD τ).loc main_arg4)) (m ((c : Thread nD τ).loc main_arg5))) (HostSide.neighEdge (m ((c : Thread nD τ).loc main_arg1)) (m ((c : Thread nD τ).loc main_arg5))) (m ((c : Thread nD τ).loc main_arg2)) (m ((c : Thread nD τ).loc main_arg3)) r j := rfl

theorem origin2 : (![0, 0] : Fin 2 → Nat) = fun _ => 0 := funext fun a => by fin_cases a <;> rfl
theorem origin1 : (![0] : Fin 1 → Nat) = fun _ => 0 := funext fun a => by fin_cases a <;> rfl

/-- Entry (p, q) of what the body leaves at point t is entry (2000 t + p, q) of the layer. -/
theorem body_at (c : Dev nD) (t : Fin cfg0.N) (p : Fin 2000) (q : Fin 64) :
    k0_pay1 (iblk m c 0 t) (iblk m c 1 t) (iblk m c 2 t) (iblk m c 3 t) (iblk m c 4 t) (iblk m c 5 t) (ix2 p q)
      = result m c (ix2 (rowOf t p) q) := by
  refine (BlockEntry.payload_at (iblk m c 0 t) (iblk m c 1 t) (iblk m c 2 t) (iblk m c 3 t) (iblk m c 4 t) (iblk m c 5 t) p q).trans ?_
  rw [result_at]
  unfold Cert.GraphLayer.entry
  simp only [feat_at m c t, neighFeat_at m c t, neighEdge_at m c t, upper_at m c t, lower_at m c t, bias_at m c t]

/-- WHAT POINT t WRITES BACK is rows 2000 t … 2000 t + 1999 of the layer of the argument arrays. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin2]
  simp only [View.ld_unit_zero (S := S2000x64) origin2, View.ld_unit_zero (S := S2000x16) origin2,
    View.ld_unit_zero (S := S64x64) origin2, View.ld_unit_zero (S := S16x64) origin2, View.ld_unit_zero (S := S64) origin1]
  funext y
  obtain ⟨p, q, rfl⟩ : ∃ (p : Fin 2000) (q : Fin 64), y = ix2 p q := ⟨y 0, y 1, eq_ix2 y⟩
  refine Eq.trans ?_ (rows6 (result m c) t p q).symm
  exact body_at m c t p q

/-- An index of the array is in point t's block iff each coordinate is in the block's range on its axis. -/
theorem mem_block (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v15).slice (win0_6.rect t)).set ↔ _
  rw [View.set_slice_whole, Rect.mem_set_unit]
  exact Iff.rfl

/-- Every row lies in the block of the point its number divided by 2000 names. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  have ht : t.val = (i 0).val / 2000 := rfl
  obtain ⟨-, -, -, -, -, -, -, -, -, -, -, e0, e1⟩ := block_of_point t
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- After the run the result array is the layer of the argument arrays. -/
theorem final (c : Dev nD) : (dats m 0 c).arrAt 6 cfg0.N = result m c :=
  (dats m 0 c).arrAt_eq_of_cover 6 (result m c) (fun t _ => flushed_eq m c t) covered

/-- The kernel's run, read: the result array ends at the layer, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ByBlocks

end
-- ==== Proof.WholeLayer.lean ====
/-
  The reference computes the layer in one piece.

  It lays the feature rows beside 16 columns of zeros, multiplies that by one, lays the summed neighbour features beside
  the summed edge weights, adds the two joined arrays, multiplies by the whole weight matrix, adds the bias row and
  clamps below at zero. Column k < 64 of a joined row is 1 · feat + nh, that is feat + nh; column 64 + k is
  1 · 0 + nw, that is nw. So its result is the layer's entry, by the split of the sum over the 80 columns.
-/
import proofs.«172708_j25649544692297_1_alg».proof.Proof.Gen.ReferenceIdeal.Read
import proofs.«172708_j25649544692297_1_alg».proof.Proof.LayerSpec
import Idealize.ShloMosaic.Lib.IdealHost
import Idealize.ShloMosaic.Lib.Pipeline.Value

noncomputable section

namespace Cert.ReferenceIdeal.WholeLayer

open Cert.ReferenceIdeal Cert.ReferenceIdeal.Gen Cert.ReferenceIdeal.Read Idealize.ShloMosaic Idealize.ShloMosaic.ValueIdx
open Cert.GraphLayer (lo hi)

variable (x0 : (⟨S100000x64, .f32⟩ : BufTy).Contents (Elt Ideal)) (x1 : (⟨S1600000x16, .f32⟩ : BufTy).Contents (Elt Ideal))
  (x2 : (⟨S80x64, .f32⟩ : BufTy).Contents (Elt Ideal)) (x3 : (⟨S64, .f32⟩ : BufTy).Contents (Elt Ideal))
  (x4 x5 : (⟨S1600000, .i32⟩ : BufTy).Contents (Elt Ideal))

/-- Column k < 64 of row r of the joined sum: the feature plus the summed neighbour feature. -/
theorem joined_lo (r : Fin 100000) (k : Fin 64) :
    val_main_v18 (F := Ideal) x0 x1 x4 x5 (ix2 r (lo k)) = x0 (ix2 r k) + val_main_v9 (F := Ideal) x0 x4 x5 (ix2 r k) := by
  rw [val_main_v18_apply, val_main_v17_apply, val_main_v16_apply, val_main_cst_3_apply]
  unfold val_main_v15 val_main_v13
  rw [concatenate_pair_apply_left (1 : Fin 2) x0 _ concatenates_S100000x64_S100000x16_S100000x80_d1 (ix2 r (lo k)) rfl (ix2 r k)
        (fun b => by match b with | ⟨0, _⟩ => rfl | ⟨1, _⟩ => rfl),
      concatenate_pair_apply_left (1 : Fin 2) (val_main_v9 (F := Ideal) x0 x4 x5) _ concatenates_S100000x64_S100000x16_S100000x80_d1
        (ix2 r (lo k)) rfl (ix2 r k) (fun b => by match b with | ⟨0, _⟩ => rfl | ⟨1, _⟩ => rfl)]
  show Ideal.ofBits .f32 0x3F800000#32 * x0 (ix2 r k) + _ = _
  rw [Ideal.ofBits_one_f32, one_mul]

/-- Column 64 + k of row r of the joined sum: the summed edge weight alone, the feature row being padded with zeros there. -/
theorem joined_hi (r : Fin 100000) (k : Fin 16) :
    val_main_v18 (F := Ideal) x0 x1 x4 x5 (ix2 r (hi k)) = val_main_v12 (F := Ideal) x1 x5 (ix2 r k) := by
  rw [val_main_v18_apply, val_main_v17_apply, val_main_v16_apply, val_main_cst_3_apply]
  unfold val_main_v15 val_main_v13
  rw [concatenate_pair_apply_right (1 : Fin 2) x0 (val_main_v14 (F := Ideal)) concatenates_S100000x64_S100000x16_S100000x80_d1
        (ix2 r (hi k)) rfl rfl (ix2 r k)
        (fun b hb => by match b with | ⟨0, _⟩ => rfl | ⟨1, _⟩ => exact absurd rfl hb)
        (by show k.val + 64 = 64 + k.val; omega),
      concatenate_pair_apply_right (1 : Fin 2) (val_main_v9 (F := Ideal) x0 x4 x5) (val_main_v12 (F := Ideal) x1 x5)
        concatenates_S100000x64_S100000x16_S100000x80_d1 (ix2 r (hi k)) rfl rfl (ix2 r k)
        (fun b hb => by match b with | ⟨0, _⟩ => rfl | ⟨1, _⟩ => exact absurd rfl hb)
        (by show k.val + 64 = 64 + k.val; omega),
      val_main_v14_apply, val_main_cst_2_apply]
  show Ideal.ofBits .f32 0x3F800000#32 * Ideal.ofBits .f32 0x00000000#32 + _ = _
  rw [Ideal.ofBits_zero_f32, mul_zero, zero_add]

/-- The reference's result is the layer of the feature rows, the two sums over incoming edges, the weights and the bias. -/
theorem result_eq_layer :
    val_main_v23 (F := Ideal) x0 x1 x2 x3 x4 x5
      = Cert.GraphLayer.layer x0 (val_main_v9 (F := Ideal) x0 x4 x5) (val_main_v12 (F := Ideal) x1 x5) x2 x3 := by
  funext i
  obtain ⟨r, j, rfl⟩ : ∃ (r : Fin 100000) (j : Fin 64), i = ix2 r j := ⟨i 0, i 1, eq_ix2 i⟩
  rw [Cert.GraphLayer.layer_ix2, val_main_v23_apply, val_main_v22_apply, val_main_v19_apply, val_main_v21_apply,
    val_main_v20_apply, val_main_call0_v0_apply, val_main_call0_cst_apply]
  have hl : ∀ k : Fin 80, lidx_main_v19 (ix2 r j) k = ix2 r k := fun k => funext fun a => Fin.ext (by
    match a with | ⟨0, _⟩ => rfl | ⟨1, _⟩ => rfl)
  have hr : ∀ k : Fin 80, ridx_main_v19 (ix2 r j) k = ix2 k j := fun k => funext fun a => Fin.ext (by
    match a with | ⟨0, _⟩ => rfl | ⟨1, _⟩ => rfl)
  have hb : idx_main_v20 (idx_main_v21 (ix2 r j)) = ix1 j := funext fun a => Fin.ext (by
    match a with | ⟨0, _⟩ => rfl)
  simp only [hl, hr, hb]
  exact Cert.GraphLayer.entry_of_joined_row x0 (val_main_v9 (F := Ideal) x0 x4 x5) (val_main_v12 (F := Ideal) x1 x5) x2 x3 r j
    (fun k => val_main_v18 (F := Ideal) x0 x1 x4 x5 (ix2 r k)) (joined_lo x0 x1 x4 x5 r) (joined_hi x0 x1 x4 x5 r)

end Cert.ReferenceIdeal.WholeLayer

end
-- ==== Proof.SameSums.lean ====
/-
  Both programs sum over incoming edges with the same host operations.

  The kernel's program and the reference gather the feature rows at the edges' sources and scatter-add them, and the
  edge-weight rows, at the edges' targets with operations of the same dimension numbers, from the same zeros. So the
  two summed arrays are the same functions of the arguments in both programs, and neither sum is ever opened.
-/
import proofs.«172708_j25649544692297_1_alg».proof.Proof.HostSide
import proofs.«172708_j25649544692297_1_alg».proof.Proof.Gen.ReferenceIdeal.Read

noncomputable section

namespace Cert.SameSums

open Idealize.ShloMosaic

/-- The two programs' scatter-adds of feature rows have the same dimension numbers. -/
theorem scatterFeat_eq :
    Cert.ReferenceIdeal.scatter_S100000x64_S1600000x1_S1600000x64_1_0_0_1 = Cert.KernelIdeal.scatter_S100000x64_S1600000x1_S1600000x64_1_0_0_1 := rfl

/-- The two programs' scatter-adds of edge-weight rows have the same dimension numbers. -/
theorem scatterEdge_eq :
    Cert.ReferenceIdeal.scatter_S100000x16_S1600000x1_S1600000x16_1_0_0_1 = Cert.KernelIdeal.scatter_S100000x16_S1600000x1_S1600000x16_1_0_0_1 := rfl

/-- The two programs' gathers of feature rows have the same dimension numbers. -/
theorem gather_eq :
    Cert.ReferenceIdeal.gather_S100000x64_S1600000x1_S1600000x64_1_0_n_n_0_1_164 = Cert.KernelIdeal.gather_S100000x64_S1600000x1_S1600000x64_1_0_n_n_0_1_164 := rfl

/-- The reference's edge sources are the kernel program's. -/
theorem sources_eq (x4 : (⟨Cert.ReferenceIdeal.S1600000, .i32⟩ : BufTy).Contents (Elt Ideal)) :
    Cert.ReferenceIdeal.Read.val_main_v5 (F := Ideal) x4 = Cert.KernelIdeal.HostSide.sources x4 := rfl

/-- The reference's summed neighbour features are the kernel program's. -/
theorem neighFeat_eq (x0 : (⟨Cert.ReferenceIdeal.S100000x64, .f32⟩ : BufTy).Contents (Elt Ideal))
    (x4 x5 : (⟨Cert.ReferenceIdeal.S1600000, .i32⟩ : BufTy).Contents (Elt Ideal)) :
    Cert.ReferenceIdeal.Read.val_main_v9 (F := Ideal) x0 x4 x5 = Cert.KernelIdeal.HostSide.neighFeat x0 x4 x5 := by
  unfold Cert.ReferenceIdeal.Read.val_main_v9 Cert.ReferenceIdeal.Read.val_main_v6 Cert.KernelIdeal.HostSide.neighFeat
  rw [scatterFeat_eq, gather_eq, sources_eq]
  rfl

/-- The reference's summed edge weights are the kernel program's. -/
theorem neighEdge_eq (x1 : (⟨Cert.ReferenceIdeal.S1600000x16, .f32⟩ : BufTy).Contents (Elt Ideal))
    (x5 : (⟨Cert.ReferenceIdeal.S1600000, .i32⟩ : BufTy).Contents (Elt Ideal)) :
    Cert.ReferenceIdeal.Read.val_main_v12 (F := Ideal) x1 x5 = Cert.KernelIdeal.HostSide.neighEdge x1 x5 := by
  unfold Cert.ReferenceIdeal.Read.val_main_v12 Cert.KernelIdeal.HostSide.neighEdge
  rw [scatterEdge_eq]
  rfl

end Cert.SameSums

end
-- ==== Proof.lean ====
/-
  One layer of a graph network: a kernel that computes it 2000 rows at a time, the product split in two, against a
  reference that computes it in one piece on joined rows.

  Both programs first sum, for every node, the feature rows of the nodes that send it an edge and the weights of those
  edges, with the same host operations; those two sums are the same terms in both and are never opened. The kernel
  then hands blocks of 2000 rows to a body that forms (features + neighbour sum) times the first 64 rows of the
  weights, plus (edge-weight sum) times the last 16 rows, plus the bias, clamped below at zero; the 50 blocks tile
  the rows, so the result array is that function of the whole arrays (ByBlocks, over BlockEntry and HostSide). The
  reference pads the feature rows with 16 zero columns, multiplies them by one, adds the two sums laid side by side,
  and multiplies by all 80 rows of the weights at once (WholeLayer). Since 1 · x = x, 0 + x = x, and a sum over 80
  columns is the sum over the first 64 plus the sum over the last 16 (LayerSpec), the two results are equal entry by
  entry on the extended reals; nothing needs to be finite, so the precondition is never opened. The changes of float
  format in the kernel are the identity at the ideal values, and the idealized kernel is the kernel's own text read at
  those values, so the claim relating the two has nothing to state.
-/
import proofs.«172708_j25649544692297_1_alg».proof.Defs
import proofs.«172708_j25649544692297_1_alg».proof.Proof.Gen.Kernel
import proofs.«172708_j25649544692297_1_alg».proof.Proof.Gen.Kernel.Skeleton
import proofs.«172708_j25649544692297_1_alg».proof.Proof.Gen.Kernel.Launch
import proofs.«172708_j25649544692297_1_alg».proof.Proof.Gen.Kernel.Points
import proofs.«172708_j25649544692297_1_alg».proof.Proof.Gen.Kernel.Frame
import proofs.«172708_j25649544692297_1_alg».proof.Proof.Gen.KernelIdeal
import proofs.«172708_j25649544692297_1_alg».proof.Proof.Gen.KernelIdeal.Skeleton
import proofs.«172708_j25649544692297_1_alg».proof.Proof.Gen.KernelIdeal.Launch
import proofs.«172708_j25649544692297_1_alg».proof.Proof.Gen.KernelIdeal.Points
import proofs.«172708_j25649544692297_1_alg».proof.Proof.Gen.KernelIdeal.Frame
import proofs.«172708_j25649544692297_1_alg».proof.Proof.Gen.ReferenceIdeal
import proofs.«172708_j25649544692297_1_alg».proof.Proof.Gen.Pre_finite_inputs
import proofs.«172708_j25649544692297_1_alg».proof.Proof.Gen.KernelIdeal.Value
import proofs.«172708_j25649544692297_1_alg».proof.Proof.Gen.ReferenceIdeal.Run
import proofs.«172708_j25649544692297_1_alg».proof.Proof.Gen.ReferenceIdeal.Read
import proofs.«172708_j25649544692297_1_alg».proof.Proof.ByBlocks
import proofs.«172708_j25649544692297_1_alg».proof.Proof.WholeLayer
import proofs.«172708_j25649544692297_1_alg».proof.Proof.SameSums
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the layer of the arguments (computed block by block,
    the product in two parts) and the reference's at the same layer (computed whole, the product in one piece). -/
theorem algebraic : Cert.algebraic_KernelIdeal_ReferenceIdeal := by
  intro m ρ m' ρ' _ hagree
  refine ⟨fun c => Cert.KernelIdeal.ByBlocks.result m c, Cert.KernelIdeal.ByBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v23_eq, Cert.ReferenceIdeal.WholeLayer.result_eq_layer,
    Cert.SameSums.neighFeat_eq, Cert.SameSums.neighEdge_eq, h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
